-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg4 : FVec F S128x64 .f32) (main_arg5 : FVec F S64 .f32) (main_arg6 : FVec F S128x64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x64 .f32 := Host.absf main_arg4
  let main_cst_6 : FVec F S_ .f32 := constant S_ .f32 0x7F800000#32
  let main_v20 : FVec F S128x64 .f32 := broadcastInDim S128x64 ![] bcast_S_S128x64 main_cst_6
  let main_v21 : IVec S128x64 1 := cmpf .olt main_v19 main_v20
  let main_c_7 : IVec S_ 1 := constantI S_ 1 1#1
  let main_v22 : IVec S_ 1 := (fun x v => Host.reduce IntOp.andi x v reducesTo_S128x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S128x64 .f32 := Host.absf main_arg6
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  main_v33

def fn {F : FTy → Type} [FloatOps F] (main_arg0 : FVec F S100000x128 .f32) (main_arg1 : FVec F S128x128 .f32) (main_arg2 : FVec F S128 .f32) (main_arg3 : FVec F S128x128 .f32) (main_arg4 : FVec F S128x64 .f32) (main_arg5 : FVec F S64 .f32) (main_arg6 : FVec F S128x64 .f32) (main_arg7 : IVec S2x1600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_v13 main_v16
-- ==== Kernel.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S5000x128 : Shape := ⟨2, ![5000, 128]⟩
abbrev S1x64 : Shape := ⟨2, ![1, 64]⟩
abbrev S100000x64 : Shape := ⟨2, ![100000, 64]⟩
abbrev S5000x64 : Shape := ⟨2, ![5000, 64]⟩

abbrev nBuf : Space → Nat
  | .hbm => 60
  | .vmem => 18
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S1x128, .f32⟩
  | .hbm, ⟨41, _⟩ => ⟨S100000x128, .f32⟩
  | .hbm, ⟨42, _⟩ => ⟨S_, .i32⟩
  | .hbm, ⟨43, _⟩ => ⟨S1600000, .i32⟩
  | .hbm, ⟨44, _⟩ => ⟨S1600000, .i1⟩
  | .hbm, ⟨45, _⟩ => ⟨S_, .i32⟩
  | .hbm, ⟨46, _⟩ => ⟨S1600000, .i32⟩
  | .hbm, ⟨47, _⟩ => ⟨S1600000, .i32⟩
  | .hbm, ⟨48, _⟩ => ⟨S1600000, .i32⟩
  | .hbm, ⟨49, _⟩ => ⟨S1600000x1, .i32⟩
  | .hbm, ⟨50, _⟩ => ⟨S1600000x128, .f32⟩
  | .hbm, ⟨51, _⟩ => ⟨S_, .f32⟩
  | .hbm, ⟨52, _⟩ => ⟨S100000x128, .f32⟩
  | .hbm, ⟨53, _⟩ => ⟨S1600000x1, .i32⟩
  | .hbm, ⟨54, _⟩ => ⟨S100000x128, .f32⟩
  | .hbm, ⟨55, _⟩ => ⟨S100000x1, .f32⟩
  | .hbm, ⟨56, _⟩ => ⟨S100000x128, .f32⟩
  | .hbm, ⟨57, _⟩ => ⟨S100000x128, .f32⟩
  | .hbm, ⟨58, _⟩ => ⟨S1x64, .f32⟩
  | .hbm, ⟨59, _⟩ => ⟨S100000x64, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S5000x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S5000x128, .f32⟩
  | .local _ .vmem, ⟨13, _⟩ => ⟨S128x64, .f32⟩
  | .local _ .vmem, ⟨14, _⟩ => ⟨S1x64, .f32⟩
  | .local _ .vmem, ⟨15, _⟩ => ⟨S128x64, .f32⟩
  | .local _ .vmem, ⟨16, _⟩ => ⟨S5000x64, .f32⟩
  | .local _ .vmem, ⟨17, _⟩ => ⟨S5000x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_cst_4 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c_5 : Ref sig .tc := ⟨.hbm, 42, rfl⟩
abbrev main_v27 : Ref sig .tc := ⟨.hbm, 43, rfl⟩
abbrev main_v28 : Ref sig .tc := ⟨.hbm, 44, rfl⟩
abbrev main_c_6 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_7 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S5000x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x64 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x64 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  shapeCasts_S64_S1x64 : S64.ShapeCasts S1x64
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  inb_S5000x64_S5000x64_0_0 : ∀ a, (![0, 0] : Fin 2 → Nat) a + S5000x64.size a ≤ S5000x64.size a
  h_S5000x64 : 0 < S5000x64.numel
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S5000x128_S128x128_S5000x128_1_0_0_1_n_n_wf : DotDims.WF S5000x128 S128x128 S5000x128 [1] [0] [0] [1] [] []
  dot_S5000x128_S128x64_S5000x64_1_0_0_1_n_n_wf : DotDims.WF S5000x128 S128x64 S5000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S5000x128.size a ≤ S100000x128.size a
  hwx0_5 : ∀ i : grid0.Coords, EltTy.bits .f32 = 32 ∨ (Rect.block (s := S100000x128) S5000x128.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x128.size a ≤ S100000x128.size a
  hwx1_1 : ∀ i : grid1.Coords, EltTy.bits .f32 = 32 ∨ (Rect.block (s := S100000x128) S5000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x64.size a ≤ S128x64.size a
  hwx1_2 : ∀ i : grid1.Coords, EltTy.bits .f32 = 32 ∨ (Rect.block (s := S128x64) S128x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x64.size a ≤ S1x64.size a
  hwx1_3 : ∀ i : grid1.Coords, EltTy.bits .f32 = 32 ∨ (Rect.block (s := S1x64) S1x64.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x64.size a ≤ S100000x64.size a
  hwx1_5 : ∀ i : grid1.Coords, EltTy.bits .f32 = 32 ∨ (Rect.block (s := S100000x64) S5000x64.size (cc1_transform_5 i) (hinb1_5 i)).WholeWords (EltTy.packing .f32)

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x64_S5000x64_1_0_0_1_n_n : DotDims S5000x128 S128x64 S5000x64 where
  lhsContracting := [1]
  rhsContracting := [0]
  lhsNonContracting := [0]
  rhsNonContracting := [1]
  lhsBatch := []
  rhsBatch := []
  wf := dot_S5000x128_S128x64_S5000x64_1_0_0_1_n_n_wf

abbrev win0_0 : Pipeline.Window sig grid0 :=
  Pipeline.Window.ofSpec (Memref.whole main_v24) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S5000x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v39) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S5000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v40) S1x64.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg6) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v41) S5000x64.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S128 : Shape := ⟨1, ![128]⟩
abbrev S128x64 : Shape := ⟨2, ![128, 64]⟩
abbrev S64 : Shape := ⟨1, ![64]⟩
abbrev S2x1600000 : Shape := ⟨2, ![2, 1600000]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000 : Shape := ⟨1, ![100000]⟩
abbrev S100000x1 : Shape := ⟨2, ![100000, 1]⟩
abbrev S1x128 : Shape := ⟨2, ![1, 128]⟩
abbrev S100000x64 : Shape := ⟨2, ![100000, 64]⟩
abbrev S1x64 : Shape := ⟨2, ![1, 64]⟩

abbrev nBuf : Space → Nat
  | .hbm => 77
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128, .f32⟩
  | .hbm, ⟨3, _⟩ => ⟨S128x128, .f32⟩
  | .hbm, ⟨4, _⟩ => ⟨S128x64, .f32⟩
  | .hbm, ⟨5, _⟩ => ⟨S64, .f32⟩
  | .hbm, ⟨6, _⟩ => ⟨S128x64, .f32⟩
  | .hbm, ⟨7, _⟩ => ⟨S2x1600000, .i32⟩
  | .hbm, ⟨8, _⟩ => ⟨S1x1600000, .i32⟩
  | .hbm, ⟨9, _⟩ => ⟨S1600000, .i32⟩
  | .hbm, ⟨10, _⟩ => ⟨S1x1600000, .i32⟩
  | .hbm, ⟨11, _⟩ => ⟨S1600000, .i32⟩
  | .hbm, ⟨12, _⟩ => ⟨S_, .i32⟩
  | .hbm, ⟨13, _⟩ => ⟨S1600000, .i32⟩
  | .hbm, ⟨14, _⟩ => ⟨S1600000, .i1⟩
  | .hbm, ⟨15, _⟩ => ⟨S_, .i32⟩
  | .hbm, ⟨16, _⟩ => ⟨S1600000, .i32⟩
  | .hbm, ⟨17, _⟩ => ⟨S1600000, .i32⟩
  | .hbm, ⟨18, _⟩ => ⟨S1600000, .i32⟩
  | .hbm, ⟨19, _⟩ => ⟨S1600000x1, .i32⟩
  | .hbm, ⟨20, _⟩ => ⟨S1600000x128, .f32⟩
  | .hbm, ⟨21, _⟩ => ⟨S_, .f32⟩
  | .hbm, ⟨22, _⟩ => ⟨S100000x128, .f32⟩
  | .hbm, ⟨23, _⟩ => ⟨S1600000x1, .i32⟩
  | .hbm, ⟨24, _⟩ => ⟨S100000x128, .f32⟩
  | .hbm, ⟨25, _⟩ => ⟨S_, .f32⟩
  | .hbm, ⟨26, _⟩ => ⟨S1600000, .f32⟩
  | .hbm, ⟨27, _⟩ => ⟨S_, .f32⟩
  | .hbm, ⟨28, _⟩ => ⟨S100000, .f32⟩
  | .hbm, ⟨29, _⟩ => ⟨S1600000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .f32⟩
  | .hbm, ⟨34, _⟩ => ⟨S100000x1, .f32⟩
  | .hbm, ⟨35, _⟩ => ⟨S100000x128, .f32⟩
  | .hbm, ⟨36, _⟩ => ⟨S100000x128, .f32⟩
  | .hbm, ⟨37, _⟩ => ⟨S100000x128, .f32⟩
  | .hbm, ⟨38, _⟩ => ⟨S1x128, .f32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S100000x128, .f32⟩
  | .hbm, ⟨43, _⟩ => ⟨S_, .f32⟩
  | .hbm, ⟨44, _⟩ => ⟨S100000x128, .f32⟩
  | .hbm, ⟨45, _⟩ => ⟨S100000x128, .f32⟩
  | .hbm, ⟨46, _⟩ => ⟨S_, .i32⟩
  | .hbm, ⟨47, _⟩ => ⟨S1600000, .i32⟩
  | .hbm, ⟨48, _⟩ => ⟨S1600000, .i1⟩
  | .hbm, ⟨49, _⟩ => ⟨S_, .i32⟩
  | .hbm, ⟨50, _⟩ => ⟨S1600000, .i32⟩
  | .hbm, ⟨51, _⟩ => ⟨S1600000, .i32⟩
  | .hbm, ⟨52, _⟩ => ⟨S1600000, .i32⟩
  | .hbm, ⟨53, _⟩ => ⟨S1600000x1, .i32⟩
  | .hbm, ⟨54, _⟩ => ⟨S1600000x128, .f32⟩
  | .hbm, ⟨55, _⟩ => ⟨S_, .f32⟩
  | .hbm, ⟨56, _⟩ => ⟨S100000x128, .f32⟩
  | .hbm, ⟨57, _⟩ => ⟨S1600000x1, .i32⟩
  | .hbm, ⟨58, _⟩ => ⟨S100000x128, .f32⟩
  | .hbm, ⟨59, _⟩ => ⟨S_, .f32⟩
  | .hbm, ⟨60, _⟩ => ⟨S1600000, .f32⟩
  | .hbm, ⟨61, _⟩ => ⟨S_, .f32⟩
  | .hbm, ⟨62, _⟩ => ⟨S100000, .f32⟩
  | .hbm, ⟨63, _⟩ => ⟨S1600000x1, .i32⟩
  | .hbm, ⟨64, _⟩ => ⟨S100000, .f32⟩
  | .hbm, ⟨65, _⟩ => ⟨S_, .f32⟩
  | .hbm, ⟨66, _⟩ => ⟨S100000, .f32⟩
  | .hbm, ⟨67, _⟩ => ⟨S100000, .f32⟩
  | .hbm, ⟨68, _⟩ => ⟨S100000x1, .f32⟩
  | .hbm, ⟨69, _⟩ => ⟨S100000x128, .f32⟩
  | .hbm, ⟨70, _⟩ => ⟨S100000x128, .f32⟩
  | .hbm, ⟨71, _⟩ => ⟨S100000x64, .f32⟩
  | .hbm, ⟨72, _⟩ => ⟨S1x64, .f32⟩
  | .hbm, ⟨73, _⟩ => ⟨S100000x64, .f32⟩
  | .hbm, ⟨74, _⟩ => ⟨S100000x64, .f32⟩
  | .hbm, ⟨75, _⟩ => ⟨S100000x64, .f32⟩
  | .hbm, ⟨76, _⟩ => ⟨S100000x64, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_c : Ref sig .tc := ⟨.hbm, 12, rfl⟩
abbrev main_v4 : Ref sig .tc := ⟨.hbm, 13, rfl⟩
abbrev main_v5 : Ref sig .tc := ⟨.hbm, 14, rfl⟩
abbrev main_c_0 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_cst_2 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_call0_cst : Ref sig .tc := ⟨.hbm, 43, rfl⟩
abbrev main_call0_v0 : Ref sig .tc := ⟨.hbm, 44, rfl⟩
abbrev main_v29 : Ref sig .tc := ⟨.hbm, 45, rfl⟩
abbrev main_c_4 : Ref sig .tc := ⟨.hbm, 46, rfl⟩
abbrev main_v30 : Ref sig .tc := ⟨.hbm, 47, rfl⟩
abbrev main_v31 : Ref sig .tc := ⟨.hbm, 48, rfl⟩
abbrev main_c_5 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_cst_6 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  scatter_S100000_S1600000x1_S1600000_n_0_0_1_wf : ScatterDims.WF S100000 S1600000x1 S1600000 [] [0] [0] 1
  dot_S100000x128_S128x128_S100000x128_1_0_0_1_n_n_wf : DotDims.WF S100000x128 S128x128 S100000x128 [1] [0] [0] [1] [] []
  dot_S100000x128_S128x64_S100000x64_1_0_0_1_n_n_wf : DotDims.WF S100000x128 S128x64 S100000x64 [1] [0] [0] [1] [] []

variable [Facts₀]

def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf

class Facts : Prop extends Facts₀ where

variable [Facts]
-- ==== Proof.KernelRun.lean ====
/-
  The idealized kernel program's whole run, with every buffer named.

  The program is four segments: host operations, a first grid of kernel calls, host operations, a second grid of kernel
  calls.  From any launch memory every weakly fair execution terminates without a fault, and every buffer of the
  TensorCore that outlives the kernels ends at the contents the segment-by-segment fold gives it: the host stretches
  applied as pure functions, each grid's arrays at what its write-backs leave.  In particular the result array ends at
  what the second grid's write-backs leave of its output window, and the eight arguments end as launched.
-/
import proofs.«150137_j73469710566065_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, and each buffer that outlives the kernels
    ends at the last boundary's contents. -/
theorem run_buffers : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- The run with the result array and the arguments read off: the result ends at what the second grid's write-backs
    leave of its output window (window 5), every argument as launched. -/
theorem run_result : θ_run defs (onTc (τ := τ) (main (F := F))) ⟨m, fun _ => 0, ρ⟩ (fun r => ∀ c : Dev nD,
      r.2.mem ((c.tc : Thread nD τ).loc main_v41) = (dat1 (V3 m ρ) c).arrAt 5 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun s h c =>
      ⟨(h c _ (mem_uc main_v41 (by decide))).trans (W4_arr m ρ c 5),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c)⟩)
    (run_buffers m ρ)

end Cert.KernelIdeal.Whole

end
-- ==== Proof.Glue.lean ====
/-
  The host operations around the two grids, as functions of the buffers they read.

  Before the first grid the program splits the edge list into sources and destinations, wraps negative sources,
  gathers the rows of the node features at the sources and adds them up at the destinations (the neighbour sums),
  counts the arriving edges of every node, clamps the count below by one, takes its reciprocal, and scales every row
  of the neighbour sums by its node's reciprocal: the neighbour mean.  Between the grids it does the same with the
  first grid's output in place of the node features, reusing the sources, the destinations and the reciprocals.
  Each stretch is read here over ARBITRARY buffer contents: the buffer it leaves is a composition of the named
  functions below of the buffers it found.
-/
import proofs.«150137_j73469710566065_1_alg».proof.Proof.Gen.KernelIdeal.Launch
import Idealize.ShloMosaic.Lib.StableHlo.Run
import Idealize.ShloMosaic.PureOps.Ideal

set_option maxRecDepth 16384

noncomputable section

namespace Cert.KernelIdeal.Glue

open Cert.KernelIdeal Cert.KernelIdeal.Gen Idealize.ShloMosaic Idealize.ShloMosaic.TcCoe Idealize.ShloMosaic.StableHlo
open Idealize.SL.Sem

/-- The edge list: row 0 the sources, row 1 the destinations. -/
abbrev Edges := IVec S2x1600000 32
/-- One node number per edge. -/
abbrev Ends := IVec S1600000 32
/-- A feature matrix: one row of 128 per node. -/
abbrev Feat := FVec Ideal S100000x128 .f32
/-- One number per node. -/
abbrev PerNode := FVec Ideal S100000 .f32

/-- The edges' sources. -/
def srcOf (e : Edges) : Ends :=
  shapeCast _ (extractStridedSlice S1x1600000 ![0, 0] e slices_S2x1600000_S1x1600000_0_0) shapeCasts_S1x1600000_S1600000
/-- The edges' destinations. -/
def dstOf (e : Edges) : Ends :=
  shapeCast _ (extractStridedSlice S1x1600000 ![1, 0] e slices_S2x1600000_S1x1600000_1_0) shapeCasts_S1x1600000_S1600000

/-- The neighbour sums of a feature matrix: its rows gathered at the sources (a negative source counted from the
    end) and added up at the destinations, from zero. -/
def sums (s d : Ends) (y : Feat) : Feat :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 d)
    (Host.gather gather_S100000x128_S1600000x1_S1600000x128_1_0_n_n_0_1_1128 y
      (broadcastInDim S1600000x1 ![0] bcast_S1600000_S1600000x1_0
        (select (cmpi .slt s (broadcastInDim S1600000 ![] bcast_S_S1600000 (constantI S_ 32 0#32)))
          (addi s (broadcastInDim S1600000 ![] bcast_S_S1600000 (constantI S_ 32 100000#32))) s)))

/-- The clamped in-degree: the number of edges arriving at each node, or one where there is none. -/
def degree (d : Ends) : PerNode :=
  maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 d)
      (broadcastInDim S1600000 ![] bcast_S_S1600000 (constant (F := Ideal) S_ .f32 0x3F800000#32)))
    (broadcastInDim S100000 ![] bcast_S_S100000 (constant (F := Ideal) S_ .f32 0x3F800000#32))

/-- Its reciprocal. -/
def recip (d : Ends) : PerNode :=
  Host.divf (F := Ideal) (broadcastInDim S100000 ![] bcast_S_S100000 (constant (F := Ideal) S_ .f32 0x3F800000#32)) (degree d)

/-- The neighbour mean: every row of the neighbour sums scaled by its node's factor `rc`. -/
def mean (s d : Ends) (rc : PerNode) (y : Feat) : Feat :=
  mulf (F := Ideal) (sums s d y)
    (broadcastInDim S100000x128 ![0, 1] bcast_S100000x1_S100000x128_0_1
      (broadcastInDim S100000x1 ![0] bcast_S100000_S100000x1_0 rc))

variable (W : Valuation τ sig (Elt Ideal))

/-! ## The stretch before the first grid -/

theorem before_mean : after (hostOps0 (F := Ideal)) W (Proc.devRef .tc main_v24)
    = mean (srcOf (W (Proc.devRef .tc main_arg7))) (dstOf (W (Proc.devRef .tc main_arg7)))
        (recip (dstOf (W (Proc.devRef .tc main_arg7)))) (W (Proc.devRef .tc main_arg0)) := by
  after_results_simp
  rfl

theorem before_src : after (hostOps0 (F := Ideal)) W (Proc.devRef .tc main_v1) = srcOf (W (Proc.devRef .tc main_arg7)) := by
  after_results_simp
  rfl

theorem before_dst : after (hostOps0 (F := Ideal)) W (Proc.devRef .tc main_v3) = dstOf (W (Proc.devRef .tc main_arg7)) := by
  after_results_simp
  rfl

theorem before_recip : after (hostOps0 (F := Ideal)) W (Proc.devRef .tc main_v21)
    = recip (dstOf (W (Proc.devRef .tc main_arg7))) := by
  after_results_simp
  rfl

theorem before_bias : after (hostOps0 (F := Ideal)) W (Proc.devRef .tc main_v25)
    = shapeCast _ (W (Proc.devRef .tc main_arg2)) shapeCasts_S128_S1x128 := by
  after_results_simp
  rfl

theorem before_arg0 : after (hostOps0 (F := Ideal)) W (Proc.devRef .tc main_arg0) = W (Proc.devRef .tc main_arg0) := by
  after_results_simp
theorem before_arg1 : after (hostOps0 (F := Ideal)) W (Proc.devRef .tc main_arg1) = W (Proc.devRef .tc main_arg1) := by
  after_results_simp
theorem before_arg3 : after (hostOps0 (F := Ideal)) W (Proc.devRef .tc main_arg3) = W (Proc.devRef .tc main_arg3) := by
  after_results_simp
theorem before_arg4 : after (hostOps0 (F := Ideal)) W (Proc.devRef .tc main_arg4) = W (Proc.devRef .tc main_arg4) := by
  after_results_simp
theorem before_arg5 : after (hostOps0 (F := Ideal)) W (Proc.devRef .tc main_arg5) = W (Proc.devRef .tc main_arg5) := by
  after_results_simp
theorem before_arg6 : after (hostOps0 (F := Ideal)) W (Proc.devRef .tc main_arg6) = W (Proc.devRef .tc main_arg6) := by
  after_results_simp

/-! ## The stretch between the grids -/

theorem between_mean : after (hostOps1 (F := Ideal)) W (Proc.devRef .tc main_v39)
    = mean (W (Proc.devRef .tc main_v1)) (W (Proc.devRef .tc main_v3)) (W (Proc.devRef .tc main_v21))
        (W (Proc.devRef .tc main_v26)) := by
  after_results_simp
  rfl

theorem between_bias : after (hostOps1 (F := Ideal)) W (Proc.devRef .tc main_v40)
    = shapeCast _ (W (Proc.devRef .tc main_arg5)) shapeCasts_S64_S1x64 := by
  after_results_simp
  rfl

theorem between_hidden : after (hostOps1 (F := Ideal)) W (Proc.devRef .tc main_v26) = W (Proc.devRef .tc main_v26) := by
  after_results_simp
theorem between_arg4 : after (hostOps1 (F := Ideal)) W (Proc.devRef .tc main_arg4) = W (Proc.devRef .tc main_arg4) := by
  after_results_simp
theorem between_arg6 : after (hostOps1 (F := Ideal)) W (Proc.devRef .tc main_arg6) = W (Proc.devRef .tc main_arg6) := by
  after_results_simp

end Cert.KernelIdeal.Glue

end
-- ==== Proof.LibPlainDot.lean ====
/-
  The plain matrix product read at an index.

  For the dimension numbers of an M×K by K×N product (contract the left operand's axis 1 with the right operand's
  axis 0, no batch axes), the sum over the contraction index that both a matmul into a zero accumulator and a
  host dot_general denote at the ideal values is the textbook one: entry (p, q) is the sum over l of
  lhs (p, l) · rhs (l, q).
-/
import Idealize.ShloMosaic.Lib.ValueIdx
import Idealize.ShloMosaic.PureOps.Ideal.Laws

noncomputable section

open scoped BigOperators

namespace Cert.LibPlainDot

open Idealize.ShloMosaic Idealize.ShloMosaic.ValueIdx

variable {M K N : ℕ}

/-- Row coordinate of the left operand's index: the output's row. -/
theorem lhs_row (j : (⟨2, ![M, N]⟩ : Shape).Idx) (k : (DotDims.plain M K N).contr.Idx) :
    ((DotDims.plain M K N).lhsIdx j k 0).val = (j 0).val := by
  unfold DotDims.lhsIdx
  have hb : ¬(0 : Fin 2) ∈ (DotDims.plain M K N).lhsBatch := List.not_mem_nil
  have hn : (0 : Fin 2) ∈ (DotDims.plain M K N).lhsNonContracting := List.mem_singleton.mpr rfl
  rw [dif_neg hb, dif_pos hn]
  rfl

/-- Column coordinate of the left operand's index: the contraction position. -/
theorem lhs_col (j : (⟨2, ![M, N]⟩ : Shape).Idx) (k : (DotDims.plain M K N).contr.Idx) :
    ((DotDims.plain M K N).lhsIdx j k 1).val = (k ⟨0, Nat.one_pos⟩).val :=
  (DotDims.plain M K N).lhsIdx_val_of_single rfl j k

/-- Row coordinate of the right operand's index: the contraction position. -/
theorem rhs_row (j : (⟨2, ![M, N]⟩ : Shape).Idx) (k : (DotDims.plain M K N).contr.Idx) :
    ((DotDims.plain M K N).rhsIdx j k 0).val = (k ⟨0, Nat.one_pos⟩).val :=
  (DotDims.plain M K N).rhsIdx_val_of_single rfl j k

/-- Column coordinate of the right operand's index: the output's column. -/
theorem rhs_col (j : (⟨2, ![M, N]⟩ : Shape).Idx) (k : (DotDims.plain M K N).contr.Idx) :
    ((DotDims.plain M K N).rhsIdx j k 1).val = (j 1).val := by
  unfold DotDims.rhsIdx
  have hb : ¬(1 : Fin 2) ∈ (DotDims.plain M K N).rhsBatch := List.not_mem_nil
  have hn : (1 : Fin 2) ∈ (DotDims.plain M K N).rhsNonContracting := List.mem_singleton.mpr rfl
  rw [dif_neg hb, dif_pos hn]
  rfl

/-- The contraction sum of a plain product at entry (p, q), re-indexed by the one contraction coordinate. -/
theorem contr_sum (lhs : (⟨2, ![M, K]⟩ : Shape).Idx → EReal) (rhs : (⟨2, ![K, N]⟩ : Shape).Idx → EReal)
    (p : Fin M) (q : Fin N) :
    (∑ k : (DotDims.plain M K N).contr.Idx,
        lhs ((DotDims.plain M K N).lhsIdx (ix2 p q) k) * rhs ((DotDims.plain M K N).rhsIdx (ix2 p q) k))
      = ∑ l : Fin K, lhs (ix2 p l) * rhs (ix2 l q) := by
  rw [← Equiv.sum_comp (contrEquiv1 (DotDims.plain M K N) K rfl rfl).symm]
  refine Finset.sum_congr rfl fun l _ => ?_
  have hl := contrEquiv1_symm_val (DotDims.plain M K N) K rfl rfl l
  have el : (DotDims.plain M K N).lhsIdx (ix2 p q) ((contrEquiv1 (DotDims.plain M K N) K rfl rfl).symm l) = ix2 p l :=
    funext fun a => Fin.ext (by
      match a with
      | ⟨0, _⟩ => exact lhs_row _ _
      | ⟨1, _⟩ => exact (lhs_col _ _).trans hl)
  have er : (DotDims.plain M K N).rhsIdx (ix2 p q) ((contrEquiv1 (DotDims.plain M K N) K rfl rfl).symm l) = ix2 l q :=
    funext fun a => Fin.ext (by
      match a with
      | ⟨0, _⟩ => exact (rhs_row _ _).trans hl
      | ⟨1, _⟩ => exact rhs_col _ _)
  rw [el, er]

/-- A matmul of plain dimension numbers into the zero accumulator, at the ideal values, read at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ l : Fin K, lhs (ix2 p l) * rhs (ix2 l q) :=
  (Ideal.matmul_constant_zero_apply (DotDims.plain M K N) prec lhs rhs (ix2 p q)).trans (contr_sum lhs rhs p q)

/-- A host dot_general of plain dimension numbers, at the ideal values, read at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ l : Fin K, lhs (ix2 p l) * rhs (ix2 l q) :=
  (Ideal.dotGeneral_apply (DotDims.plain M K N) prec sched lhs rhs (ix2 p q)).trans (contr_sum lhs rhs p q)

end Cert.LibPlainDot

end
-- ==== Proof.Payload.lean ====
/-
  The two kernel bodies' stored values, read at an entry.

  Each body takes a block of 5000 rows of the aggregated features a and of the node features x, the two weight matrices
  and the bias row, and stores (a · Wl) + (x · Wr) + bias, the first body rectified.  At the ideal values the narrowing
  to bf16 before the products is the identity, a product into the zero accumulator is the plain sum over the 128
  contracted positions, and the bias row is repeated down the rows: entry (p, q) of the stored block is

      Σ_k a(p, k) · Wl(k, q)  +  Σ_k x(p, k) · Wr(k, q)  +  bias(0, q),

  and the first body stores the maximum of that with zero.
-/
import proofs.«150137_j73469710566065_1_alg».proof.Proof.Gen.KernelIdeal.Skeleton
import proofs.«150137_j73469710566065_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Body

open Cert.KernelIdeal Cert.KernelIdeal.Gen Idealize.ShloMosaic Idealize.ShloMosaic.ValueIdx

/-- The first body's products are plain 5000×128 by 128×128 products. -/
theorem dims0 : dot_S5000x128_S128x128_S5000x128_1_0_0_1_n_n = DotDims.plain 5000 128 128 := rfl
/-- The second body's are plain 5000×128 by 128×64 products. -/
theorem dims1 : dot_S5000x128_S128x64_S5000x64_1_0_0_1_n_n = DotDims.plain 5000 128 64 := rfl

/-- A product into the zero accumulator, first body's shape, at entry (p, q). -/
theorem prod0_apply (D : DotDims S5000x128 S128x128 S5000x128) (hD : D = DotDims.plain 5000 128 128)
    (l : FVec Ideal S5000x128 .bf16) (r : FVec Ideal S128x128 .bf16) (p : Fin 5000) (q : Fin 128) :
    matmul D none l r (constant (F := Ideal) S5000x128 .f32 0x00000000#32) (ix2 p q)
      = ∑ k : Fin 128, l (ix2 p k) * r (ix2 k q) := by
  subst hD
  exact LibPlainDot.matmul_zero_apply none l r p q

/-- A product into the zero accumulator, second body's shape, at entry (p, q). -/
theorem prod1_apply (D : DotDims S5000x128 S128x64 S5000x64) (hD : D = DotDims.plain 5000 128 64)
    (l : FVec Ideal S5000x128 .bf16) (r : FVec Ideal S128x64 .bf16) (p : Fin 5000) (q : Fin 64) :
    matmul D none l r (constant (F := Ideal) S5000x64 .f32 0x00000000#32) (ix2 p q)
      = ∑ k : Fin 128, l (ix2 p k) * r (ix2 k q) := by
  subst hD
  exact LibPlainDot.matmul_zero_apply none l r p q

/-- The first body's stored block at (p, q): the rectified affine value of row p. -/
theorem pay0_apply (a x : Vec Ideal S5000x128 .f32) (wl wr : Vec Ideal S128x128 .f32) (b : Vec Ideal S1x128 .f32)
    (p : Fin 5000) (q : Fin 128) :
    k0_pay1 (F := Ideal) a x wl wr b (ix2 p q)
      = max ((∑ k : Fin 128, a (ix2 p k) * wl (ix2 k q)) + (∑ k : Fin 128, x (ix2 p k) * wr (ix2 k q))
          + b (ix2 (0 : Fin 1) q)) 0 := by
  unfold k0_pay1
  show max ((matmul _ none _ _ _ (ix2 p q) + matmul _ none _ _ _ (ix2 p q)) + broadcastTo _ _ _ (ix2 p q))
    (Ideal.ofBits .f32 0x00000000#32) = _
  rw [prod0_apply _ dims0, prod0_apply _ dims0, broadcastTo_1b_ab_apply, Ideal.ofBits_zero_f32, shapeCast_self,
    shapeCast_self]
  rfl

/-- The second body's stored block at (p, q): the affine value of row p. -/
theorem pay1_apply (a x : Vec Ideal S5000x128 .f32) (wl wr : Vec Ideal S128x64 .f32) (b : Vec Ideal S1x64 .f32)
    (p : Fin 5000) (q : Fin 64) :
    k1_pay1 (F := Ideal) a x wl wr b (ix2 p q)
      = (∑ k : Fin 128, a (ix2 p k) * wl (ix2 k q)) + (∑ k : Fin 128, x (ix2 p k) * wr (ix2 k q))
          + b (ix2 (0 : Fin 1) q) := by
  unfold k1_pay1
  show (matmul _ none _ _ _ (ix2 p q) + matmul _ none _ _ _ (ix2 p q)) + broadcastTo _ _ _ (ix2 p q) = _
  rw [prod1_apply _ dims1, prod1_apply _ dims1, broadcastTo_1b_ab_apply]
  simp only [shapeCast_self]
  rfl

end Cert.KernelIdeal.Body

end
-- ==== Proof.Blocks0.lean ====
/-
  The first grid of kernel calls as one whole-array function.

  The grid has twenty points; point t works on rows 5000·t … 5000·t + 4999.  Its two row-blocked inputs (the aggregated
  features and the node features) are read at those rows, the two weight matrices and the bias row are read whole at
  every point, and the output block holds the rectified affine value of each of its rows.  The twenty output blocks
  tile the 100000 rows, so after the grid the output array is, row by row, the rectified affine value of that row —
  one function of the arrays the grid finds, stated here for ARBITRARY contents of those arrays.
-/
import proofs.«150137_j73469710566065_1_alg».proof.Proof.Gen.KernelIdeal.Frame
import proofs.«150137_j73469710566065_1_alg».proof.Proof.Payload
import Idealize.ShloMosaic.Lib.ValueIdx
import Idealize.ShloMosaic.Lib.Pipeline.Value

set_option maxRecDepth 16384

noncomputable section

open scoped BigOperators

namespace Cert.KernelIdeal.Blocks0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The first layer over whole arrays: row r of the result is the rectified affine value of row r of the aggregated
    features `a` and of the node features `x`; `b` is the bias as a one-row matrix. -/
def layer (a x : FVec Ideal S100000x128 .f32) (wl : FVec Ideal S128x128 .f32) (b : FVec Ideal S1x128 .f32)
    (wr : FVec Ideal S128x128 .f32) : FVec Ideal S100000x128 .f32 :=
  fun i => max ((∑ k : Fin 128, a (ix2 (i 0) k) * wl (ix2 k (i 1))) + (∑ k : Fin 128, x (ix2 (i 0) k) * wr (ix2 k (i 1)))
    + b (ix2 (0 : Fin 1) (i 1))) 0

/-- The printed index maps over the grid: the two row-blocked inputs move with the output, down the rows only; the
    weights and the bias stay at their one block. -/
theorem idx_facts : ∀ t : Fin cfg0.N, win0_0.index t (0 : Fin 2) = win0_5.index t (0 : Fin 2)
    ∧ win0_0.index t (1 : Fin 2) = 0
    ∧ win0_1.index t (0 : Fin 2) = win0_5.index t (0 : Fin 2)
    ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) ≤ 19 ∧ win0_5.index t (1 : Fin 2) = 0 :=
  (by decide +kernel : ∀ t : Fin grid0.N, _)

/-- Every row block is some point's. -/
theorem idx_onto : ∀ q0 : Fin 20, ∃ t : Fin cfg0.N, win0_5.index t = ![q0.val, 0] :=
  (by decide +kernel : ∀ q0 : Fin 20, ∃ t : Fin grid0.N, win0_5.index t = ![q0.val, 0])

/-- WHAT POINT `t` WRITES BACK is block `t` of the layer of the arrays as the grid finds them: the row-blocked inputs'
    blocks are the same rows of their arrays, the weights and the bias are read whole. -/
theorem flushed (c : Dev nD) (t : Fin cfg0.N) :
    (dat0 V c).flushed 5 t = ((cfg0.win 5).blk t).view.read (Elt Ideal)
      (layer (V c main_v24) (V c main_arg0) (V c main_arg1) (V c main_v25) (V c main_arg3)) := by
  show (cfg0.win 5).cut (grid0.coords t) ((dat0 V c).after 5 t) = _
  rw [after0_5]
  unfold out0_5
  rw [View.canon_unit_zero zero_off]
  simp only [View.ld_unit_zero (S := S5000x128) zero_off, View.ld_unit_zero (S := S128x128) zero_off, View.ld_unit_zero (S := S1x128) zero_off]
  funext j
  obtain ⟨p, q, rfl⟩ : ∃ (p : Fin 5000) (q : Fin 128), j = ix2 p q := ⟨j 0, j 1, eq_ix2 j⟩
  obtain ⟨e00, e01, e10, e11, e20, e21, e30, e31, e40, e41, -, e51⟩ := idx_facts t
  refine (Body.pay0_apply (iblk0 V c 0 t) (iblk0 V c 1 t) (iblk0 V c 2 t) (iblk0 V c 4 t) (iblk0 V c 3 t) p q).trans ?_
  have hA : ∀ k : Fin 128, ((cfg0.win 0).blk t).view.emb (ix2 p k)
      = ix2 ((((cfg0.win 5).blk t).view.emb (ix2 p q)) 0) k := fun k => by
    funext a; apply Fin.ext
    match a with
    | ⟨0, _⟩ => show win0_0.index t (0 : Fin 2) * 5000 + 1 * p.val = win0_5.index t (0 : Fin 2) * 5000 + 1 * p.val; omega
    | ⟨1, _⟩ => show win0_0.index t (1 : Fin 2) * 128 + 1 * k.val = k.val; omega
  have hX : ∀ k : Fin 128, ((cfg0.win 1).blk t).view.emb (ix2 p k)
      = ix2 ((((cfg0.win 5).blk t).view.emb (ix2 p q)) 0) k := fun k => by
    funext a; apply Fin.ext
    match a with
    | ⟨0, _⟩ => show win0_1.index t (0 : Fin 2) * 5000 + 1 * p.val = win0_5.index t (0 : Fin 2) * 5000 + 1 * p.val; omega
    | ⟨1, _⟩ => show win0_1.index t (1 : Fin 2) * 128 + 1 * k.val = k.val; omega
  have hWl : ∀ k : Fin 128, ((cfg0.win 2).blk t).view.emb (ix2 k q)
      = ix2 k ((((cfg0.win 5).blk t).view.emb (ix2 p q)) 1) := fun k => by
    funext a; apply Fin.ext
    match a with
    | ⟨0, _⟩ => show win0_2.index t (0 : Fin 2) * 128 + 1 * k.val = k.val; omega
    | ⟨1, _⟩ => show win0_2.index t (1 : Fin 2) * 128 + 1 * q.val = win0_5.index t (1 : Fin 2) * 128 + 1 * q.val; omega
  have hWr : ∀ k : Fin 128, ((cfg0.win 4).blk t).view.emb (ix2 k q)
      = ix2 k ((((cfg0.win 5).blk t).view.emb (ix2 p q)) 1) := fun k => by
    funext a; apply Fin.ext
    match a with
    | ⟨0, _⟩ => show win0_4.index t (0 : Fin 2) * 128 + 1 * k.val = k.val; omega
    | ⟨1, _⟩ => show win0_4.index t (1 : Fin 2) * 128 + 1 * q.val = win0_5.index t (1 : Fin 2) * 128 + 1 * q.val; omega
  have hB : ((cfg0.win 3).blk t).view.emb (ix2 (0 : Fin 1) q)
      = ix2 (0 : Fin 1) ((((cfg0.win 5).blk t).view.emb (ix2 p q)) 1) := by
    funext a; apply Fin.ext
    match a with
    | ⟨0, _⟩ => show win0_3.index t (0 : Fin 2) * 1 + 1 * 0 = 0; omega
    | ⟨1, _⟩ => show win0_3.index t (1 : Fin 2) * 128 + 1 * q.val = win0_5.index t (1 : Fin 2) * 128 + 1 * q.val; omega
  have rA : ∀ k : Fin 128, iblk0 V c 0 t (ix2 p k)
      = V c main_v24 (ix2 ((((cfg0.win 5).blk t).view.emb (ix2 p q)) 0) k) := fun k => congrArg (V c main_v24) (hA k)
  have rX : ∀ k : Fin 128, iblk0 V c 1 t (ix2 p k)
      = V c main_arg0 (ix2 ((((cfg0.win 5).blk t).view.emb (ix2 p q)) 0) k) := fun k => congrArg (V c main_arg0) (hX k)
  have rWl : ∀ k : Fin 128, iblk0 V c 2 t (ix2 k q)
      = V c main_arg1 (ix2 k ((((cfg0.win 5).blk t).view.emb (ix2 p q)) 1)) := fun k => congrArg (V c main_arg1) (hWl k)
  have rWr : ∀ k : Fin 128, iblk0 V c 4 t (ix2 k q)
      = V c main_arg3 (ix2 k ((((cfg0.win 5).blk t).view.emb (ix2 p q)) 1)) := fun k => congrArg (V c main_arg3) (hWr k)
  have rB : iblk0 V c 3 t (ix2 (0 : Fin 1) q)
      = V c main_v25 (ix2 (0 : Fin 1) ((((cfg0.win 5).blk t).view.emb (ix2 p q)) 1)) := congrArg (V c main_v25) hB
  simp only [rA, rX, rWl, rWr, rB]
  rfl

/-- An index of the array is in point `t`'s block iff each coordinate is in the block's range on its axis. -/
theorem mem_blk (t : Fin cfg0.N) (i : S100000x128.Idx) :
    i ∈ ((cfg0.win 5).blk t).view.set ↔ ∀ a : Fin 2, win0_5.index t a * S5000x128.size a ≤ (i a).val
      ∧ (i a).val < win0_5.index t a * S5000x128.size a + S5000x128.size a := by
  show i ∈ ((View.whole main_v26).slice (win0_5.rect t)).set ↔ _
  rw [View.set_slice_whole, Rect.mem_set_unit]
  exact Iff.rfl

/-- Every row of the array lies in the block of the point whose number is the row divided by 5000: the twenty blocks
    of 5000 rows fill the 100000 rows. -/
theorem cover (i : S100000x128.Idx) :
    ∃ t : Fin cfg0.N, (cfg0.win 5).flush t = true ∧ i ∈ ((cfg0.win 5).blk t).view.set := by
  have hi0 : (i 0).val < 100000 := (i 0).isLt
  have hi1 : (i 1).val < 128 := (i 1).isLt
  obtain ⟨t, ht⟩ := idx_onto ⟨(i 0).val / 5000, by omega⟩
  have q0 : win0_5.index t (0 : Fin 2) = (i 0).val / 5000 := congrFun ht 0
  have q1 : win0_5.index t (1 : Fin 2) = 0 := congrFun ht 1
  refine ⟨t, flush0_5 t, ?_⟩
  rw [mem_blk]
  intro a
  match a with
  | ⟨0, _⟩ => show win0_5.index t (0 : Fin 2) * 5000 ≤ (i 0).val ∧ (i 0).val < win0_5.index t (0 : Fin 2) * 5000 + 5000; omega
  | ⟨1, _⟩ => show win0_5.index t (1 : Fin 2) * 128 ≤ (i 1).val ∧ (i 1).val < win0_5.index t (1 : Fin 2) * 128 + 128; omega

/-- THE OUTPUT ARRAY after the first grid: the layer of the arrays as the grid finds them, whatever they are. -/
theorem final (c : Dev nD) :
    (dat0 V c).arrAt 5 cfg0.N = layer (V c main_v24) (V c main_arg0) (V c main_arg1) (V c main_v25) (V c main_arg3) :=
  (dat0 V c).arrAt_eq_of_cover 5 _ (fun t _ => flushed V c t) cover

end Cert.KernelIdeal.Blocks0

end
-- ==== Proof.Blocks1.lean ====
/-
  The second grid of kernel calls as one whole-array function.

  As the first grid, without the rectifier and with 64 output columns: point t works on rows 5000·t … 5000·t + 4999 of
  the aggregated hidden features and of the hidden features, reads the two 128×64 weight matrices and the bias row
  whole, and writes the affine value of each of its rows.  The twenty output blocks tile the 100000 rows, so after the
  grid the output array is, row by row, the affine value of that row, for ARBITRARY contents of the arrays the grid
  finds.
-/
import proofs.«150137_j73469710566065_1_alg».proof.Proof.Gen.KernelIdeal.Frame
import proofs.«150137_j73469710566065_1_alg».proof.Proof.Payload
import Idealize.ShloMosaic.Lib.ValueIdx
import Idealize.ShloMosaic.Lib.Pipeline.Value

set_option maxRecDepth 16384

noncomputable section

open scoped BigOperators

namespace Cert.KernelIdeal.Blocks1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

theorem zero_off : (![0, 0] : Fin 2 → Nat) = fun _ => 0 := funext fun a => by fin_cases a <;> rfl

/-- The second layer over whole arrays: row r of the result is the affine value of row r of the aggregated features
    `a` and of the hidden features `x`; `b` is the bias as a one-row matrix. -/
def layer (a x : FVec Ideal S100000x128 .f32) (wl : FVec Ideal S128x64 .f32) (b : FVec Ideal S1x64 .f32)
    (wr : FVec Ideal S128x64 .f32) : FVec Ideal S100000x64 .f32 :=
  fun i => (∑ k : Fin 128, a (ix2 (i 0) k) * wl (ix2 k (i 1))) + (∑ k : Fin 128, x (ix2 (i 0) k) * wr (ix2 k (i 1)))
    + b (ix2 (0 : Fin 1) (i 1))

/-- The printed index maps over the grid: the two row-blocked inputs move with the output, down the rows only; the
    weights and the bias stay at their one block. -/
theorem idx_facts : ∀ t : Fin cfg1.N, win1_0.index t (0 : Fin 2) = win1_5.index t (0 : Fin 2)
    ∧ win1_0.index t (1 : Fin 2) = 0
    ∧ win1_1.index t (0 : Fin 2) = win1_5.index t (0 : Fin 2)
    ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) ≤ 19 ∧ win1_5.index t (1 : Fin 2) = 0 :=
  (by decide +kernel : ∀ t : Fin grid1.N, _)

/-- Every row block is some point's. -/
theorem idx_onto : ∀ q0 : Fin 20, ∃ t : Fin cfg1.N, win1_5.index t = ![q0.val, 0] :=
  (by decide +kernel : ∀ q0 : Fin 20, ∃ t : Fin grid1.N, win1_5.index t = ![q0.val, 0])

/-- WHAT POINT `t` WRITES BACK is block `t` of the layer of the arrays as the grid finds them: the row-blocked inputs'
    blocks are the same rows of their arrays, the weights and the bias are read whole. -/
theorem flushed (c : Dev nD) (t : Fin cfg1.N) :
    (dat1 V c).flushed 5 t = ((cfg1.win 5).blk t).view.read (Elt Ideal)
      (layer (V c main_v39) (V c main_v26) (V c main_arg4) (V c main_v40) (V c main_arg6)) := by
  show (cfg1.win 5).cut (grid1.coords t) ((dat1 V c).after 5 t) = _
  rw [after1_5]
  unfold out1_5
  rw [View.canon_unit_zero zero_off]
  simp only [View.ld_unit_zero (S := S5000x128) zero_off, View.ld_unit_zero (S := S128x64) zero_off, View.ld_unit_zero (S := S1x64) zero_off]
  funext j
  obtain ⟨p, q, rfl⟩ : ∃ (p : Fin 5000) (q : Fin 64), j = ix2 p q := ⟨j 0, j 1, eq_ix2 j⟩
  obtain ⟨e00, e01, e10, e11, e20, e21, e30, e31, e40, e41, -, e51⟩ := idx_facts t
  refine (Body.pay1_apply (iblk1 V c 0 t) (iblk1 V c 1 t) (iblk1 V c 2 t) (iblk1 V c 4 t) (iblk1 V c 3 t) p q).trans ?_
  have hA : ∀ k : Fin 128, ((cfg1.win 0).blk t).view.emb (ix2 p k)
      = ix2 ((((cfg1.win 5).blk t).view.emb (ix2 p q)) 0) k := fun k => by
    funext a; apply Fin.ext
    match a with
    | ⟨0, _⟩ => show win1_0.index t (0 : Fin 2) * 5000 + 1 * p.val = win1_5.index t (0 : Fin 2) * 5000 + 1 * p.val; omega
    | ⟨1, _⟩ => show win1_0.index t (1 : Fin 2) * 128 + 1 * k.val = k.val; omega
  have hX : ∀ k : Fin 128, ((cfg1.win 1).blk t).view.emb (ix2 p k)
      = ix2 ((((cfg1.win 5).blk t).view.emb (ix2 p q)) 0) k := fun k => by
    funext a; apply Fin.ext
    match a with
    | ⟨0, _⟩ => show win1_1.index t (0 : Fin 2) * 5000 + 1 * p.val = win1_5.index t (0 : Fin 2) * 5000 + 1 * p.val; omega
    | ⟨1, _⟩ => show win1_1.index t (1 : Fin 2) * 128 + 1 * k.val = k.val; omega
  have hWl : ∀ k : Fin 128, ((cfg1.win 2).blk t).view.emb (ix2 k q)
      = ix2 k ((((cfg1.win 5).blk t).view.emb (ix2 p q)) 1) := fun k => by
    funext a; apply Fin.ext
    match a with
    | ⟨0, _⟩ => show win1_2.index t (0 : Fin 2) * 128 + 1 * k.val = k.val; omega
    | ⟨1, _⟩ => show win1_2.index t (1 : Fin 2) * 64 + 1 * q.val = win1_5.index t (1 : Fin 2) * 64 + 1 * q.val; omega
  have hWr : ∀ k : Fin 128, ((cfg1.win 4).blk t).view.emb (ix2 k q)
      = ix2 k ((((cfg1.win 5).blk t).view.emb (ix2 p q)) 1) := fun k => by
    funext a; apply Fin.ext
    match a with
    | ⟨0, _⟩ => show win1_4.index t (0 : Fin 2) * 128 + 1 * k.val = k.val; omega
    | ⟨1, _⟩ => show win1_4.index t (1 : Fin 2) * 64 + 1 * q.val = win1_5.index t (1 : Fin 2) * 64 + 1 * q.val; omega
  have hB : ((cfg1.win 3).blk t).view.emb (ix2 (0 : Fin 1) q)
      = ix2 (0 : Fin 1) ((((cfg1.win 5).blk t).view.emb (ix2 p q)) 1) := by
    funext a; apply Fin.ext
    match a with
    | ⟨0, _⟩ => show win1_3.index t (0 : Fin 2) * 1 + 1 * 0 = 0; omega
    | ⟨1, _⟩ => show win1_3.index t (1 : Fin 2) * 64 + 1 * q.val = win1_5.index t (1 : Fin 2) * 64 + 1 * q.val; omega
  have rA : ∀ k : Fin 128, iblk1 V c 0 t (ix2 p k)
      = V c main_v39 (ix2 ((((cfg1.win 5).blk t).view.emb (ix2 p q)) 0) k) := fun k => congrArg (V c main_v39) (hA k)
  have rX : ∀ k : Fin 128, iblk1 V c 1 t (ix2 p k)
      = V c main_v26 (ix2 ((((cfg1.win 5).blk t).view.emb (ix2 p q)) 0) k) := fun k => congrArg (V c main_v26) (hX k)
  have rWl : ∀ k : Fin 128, iblk1 V c 2 t (ix2 k q)
      = V c main_arg4 (ix2 k ((((cfg1.win 5).blk t).view.emb (ix2 p q)) 1)) := fun k => congrArg (V c main_arg4) (hWl k)
  have rWr : ∀ k : Fin 128, iblk1 V c 4 t (ix2 k q)
      = V c main_arg6 (ix2 k ((((cfg1.win 5).blk t).view.emb (ix2 p q)) 1)) := fun k => congrArg (V c main_arg6) (hWr k)
  have rB : iblk1 V c 3 t (ix2 (0 : Fin 1) q)
      = V c main_v40 (ix2 (0 : Fin 1) ((((cfg1.win 5).blk t).view.emb (ix2 p q)) 1)) := congrArg (V c main_v40) hB
  simp only [rA, rX, rWl, rWr, rB]
  rfl

/-- An index of the array is in point `t`'s block iff each coordinate is in the block's range on its axis. -/
theorem mem_blk (t : Fin cfg1.N) (i : S100000x64.Idx) :
    i ∈ ((cfg1.win 5).blk t).view.set ↔ ∀ a : Fin 2, win1_5.index t a * S5000x64.size a ≤ (i a).val
      ∧ (i a).val < win1_5.index t a * S5000x64.size a + S5000x64.size a := by
  show i ∈ ((View.whole main_v41).slice (win1_5.rect t)).set ↔ _
  rw [View.set_slice_whole, Rect.mem_set_unit]
  exact Iff.rfl

/-- Every row of the array lies in the block of the point whose number is the row divided by 5000: the twenty blocks
    of 5000 rows fill the 100000 rows. -/
theorem cover (i : S100000x64.Idx) :
    ∃ t : Fin cfg1.N, (cfg1.win 5).flush t = true ∧ i ∈ ((cfg1.win 5).blk t).view.set := by
  have hi0 : (i 0).val < 100000 := (i 0).isLt
  have hi1 : (i 1).val < 64 := (i 1).isLt
  obtain ⟨t, ht⟩ := idx_onto ⟨(i 0).val / 5000, by omega⟩
  have q0 : win1_5.index t (0 : Fin 2) = (i 0).val / 5000 := congrFun ht 0
  have q1 : win1_5.index t (1 : Fin 2) = 0 := congrFun ht 1
  refine ⟨t, flush1_5 t, ?_⟩
  rw [mem_blk]
  intro a
  match a with
  | ⟨0, _⟩ => show win1_5.index t (0 : Fin 2) * 5000 ≤ (i 0).val ∧ (i 0).val < win1_5.index t (0 : Fin 2) * 5000 + 5000; omega
  | ⟨1, _⟩ => show win1_5.index t (1 : Fin 2) * 64 ≤ (i 1).val ∧ (i 1).val < win1_5.index t (1 : Fin 2) * 64 + 64; omega

/-- THE OUTPUT ARRAY after the second grid: the layer of the arrays as the grid finds them, whatever they are. -/
theorem final (c : Dev nD) :
    (dat1 V c).arrAt 5 cfg1.N = layer (V c main_v39) (V c main_v26) (V c main_arg4) (V c main_v40) (V c main_arg6) :=
  (dat1 V c).arrAt_eq_of_cover 5 _ (fun t _ => flushed V c t) cover

end Cert.KernelIdeal.Blocks1

end
-- ==== Proof.LibRecipDiv.lean ====
/-
  Dividing by a nonzero extended real is multiplying by its reciprocal.

  On the extended reals the ideal quotient x / y is x · y⁻¹ whenever y ≠ 0 (y may be infinite: its inverse is then 0),
  and 1 / y is y⁻¹.  So a program that scales by a precomputed reciprocal 1 / c and one that divides by c agree as soon
  as c is not zero — no finiteness of x or c is needed.  A count clamped below by one (max n 1) is such a c.
-/
import Idealize.ShloMosaic.PureOps.Ideal.Laws

noncomputable section

namespace Cert.LibRecipDiv

open Idealize.ShloMosaic

/-- The f32 word 0x3F800000 denotes the number one. -/
theorem ofBits_one_f32 : Ideal.ofBits .f32 0x3F800000#32 = 1 := by
  simp [Ideal.ofBits, Ideal.ieee, -EReal.coe_mul]; norm_num

/-- For `c ≠ 0` (finite or not), `x · (1 / c) = x / c` at the ideal values: both are `x · c⁻¹`. -/
theorem mul_one_div (x c : EReal) (hc : c ≠ 0) : x * Ideal.div 1 c = Ideal.div x c := by
  unfold Ideal.div
  rw [if_neg hc, if_neg hc, one_mul]

/-- Anything clamped below by one is not zero. -/
theorem max_one_ne_zero (n : EReal) : max n 1 ≠ 0 :=
  (lt_of_lt_of_le zero_lt_one (le_max_right n 1)).ne'

/-- The same with the one spelt as its f32 word, as a clamp against a float constant prints. -/
theorem max_oneWord_ne_zero (n : EReal) : max n (Ideal.ofBits .f32 0x3F800000#32) ≠ 0 := by
  rw [ofBits_one_f32]
  exact max_one_ne_zero n

end Cert.LibRecipDiv

end
-- ==== Proof.SageLaw.lean ====
/-
  One two-layer mean-aggregation graph convolution, written in two ways, on the extended reals.

  A layer takes a node feature matrix x : [N, D], the matrix s of neighbour sums (row r of s is the sum of the rows of
  x over the edges arriving at r) and the clamped in-degree c : [N] (c r = max (in-degree of r) 1), and returns

      (s r / c r) · Wl  +  b  +  x r · Wr            at every row r.

  The two programs differ in two ways only.  One divides the neighbour sum by c r, the other multiplies it by the
  reciprocal 1 / c r: on the extended reals the quotient by a NONZERO c r is the product with its inverse, and
  1 / c r is that inverse, so the two agree without any finiteness (c r ≥ 1 is never zero).  And one adds the bias
  before the second product, the other after: addition on the extended reals is commutative and associative.

  How the neighbour sums are computed (a gather along the edges' sources, a scatter-add at their destinations) is the
  same on both sides and is kept as an arbitrary function S from feature matrices to neighbour sums.
-/
import proofs.«150137_j73469710566065_1_alg».proof.Proof.LibRecipDiv
import Idealize.ShloMosaic.Lib.ValueIdx
import Idealize.ShloMosaic.PureOps.Ideal.Laws

noncomputable section

open scoped BigOperators

namespace Cert.SageLaw

open Idealize.ShloMosaic Idealize.ShloMosaic.ValueIdx

variable {N D J : ℕ}

/-- The mean over the arriving edges as a quotient: the neighbour sum divided by the row's clamped in-degree. -/
def meanDiv (s : FVec Ideal ⟨2, ![N, D]⟩ .f32) (c : FVec Ideal ⟨1, ![N]⟩ .f32) : FVec Ideal ⟨2, ![N, D]⟩ .f32 :=
  fun i => Ideal.div (s i) (c (ix1 (i 0)))

/-- The same mean as a product: the neighbour sum times the reciprocal of the row's clamped in-degree. -/
def meanMul (s : FVec Ideal ⟨2, ![N, D]⟩ .f32) (c : FVec Ideal ⟨1, ![N]⟩ .f32) : FVec Ideal ⟨2, ![N, D]⟩ .f32 :=
  fun i => s i * Ideal.div 1 (c (ix1 (i 0)))

/-- Off zero the quotient x / y is x · y⁻¹ and 1 / y is y⁻¹, at the infinities too: the two means are one function
    as soon as no clamped in-degree is zero. -/
theorem meanMul_eq_meanDiv (s : FVec Ideal ⟨2, ![N, D]⟩ .f32) (c : FVec Ideal ⟨1, ![N]⟩ .f32)
    (hc : ∀ r, c r ≠ 0) : meanMul s c = meanDiv s c :=
  funext fun _ => LibRecipDiv.mul_one_div _ _ (hc _)

/-- One layer's affine map, the bias added between the two products:
    (a · Wl)(r, q) + b q + (x · Wr)(r, q). -/
def layerMid (a x : FVec Ideal ⟨2, ![N, D]⟩ .f32) (wl wr : FVec Ideal ⟨2, ![D, J]⟩ .f32)
    (b : FVec Ideal ⟨1, ![J]⟩ .f32) : FVec Ideal ⟨2, ![N, J]⟩ .f32 :=
  fun i => (∑ k : Fin D, a (ix2 (i 0) k) * wl (ix2 k (i 1))) + b (ix1 (i 1))
    + ∑ k : Fin D, x (ix2 (i 0) k) * wr (ix2 k (i 1))

/-- The same affine map, the bias added last: (a · Wl)(r, q) + (x · Wr)(r, q) + b q. -/
def layerLast (a x : FVec Ideal ⟨2, ![N, D]⟩ .f32) (wl wr : FVec Ideal ⟨2, ![D, J]⟩ .f32)
    (b : FVec Ideal ⟨1, ![J]⟩ .f32) : FVec Ideal ⟨2, ![N, J]⟩ .f32 :=
  fun i => (∑ k : Fin D, a (ix2 (i 0) k) * wl (ix2 k (i 1)))
    + (∑ k : Fin D, x (ix2 (i 0) k) * wr (ix2 k (i 1))) + b (ix1 (i 1))

/-- The order of the three summands does not matter. -/
theorem layerLast_eq_layerMid (a x : FVec Ideal ⟨2, ![N, D]⟩ .f32) (wl wr : FVec Ideal ⟨2, ![D, J]⟩ .f32)
    (b : FVec Ideal ⟨1, ![J]⟩ .f32) : layerLast a x wl wr b = layerMid a x wl wr b :=
  funext fun _ => add_right_comm _ _ _

/-- The rectifier: the maximum with zero, entry by entry. -/
def relu (y : FVec Ideal ⟨2, ![N, D]⟩ .f32) : FVec Ideal ⟨2, ![N, D]⟩ .f32 := fun i => max (y i) 0

/-- The network with the mean as a quotient and the bias in the middle: a rectified layer, then a plain one, the
    neighbour sums of each layer's input given by `S`. -/
def netDiv (S : FVec Ideal ⟨2, ![N, D]⟩ .f32 → FVec Ideal ⟨2, ![N, D]⟩ .f32) (c : FVec Ideal ⟨1, ![N]⟩ .f32)
    (x : FVec Ideal ⟨2, ![N, D]⟩ .f32) (wl1 : FVec Ideal ⟨2, ![D, D]⟩ .f32) (b1 : FVec Ideal ⟨1, ![D]⟩ .f32)
    (wr1 : FVec Ideal ⟨2, ![D, D]⟩ .f32) (wl2 : FVec Ideal ⟨2, ![D, J]⟩ .f32) (b2 : FVec Ideal ⟨1, ![J]⟩ .f32)
    (wr2 : FVec Ideal ⟨2, ![D, J]⟩ .f32) : FVec Ideal ⟨2, ![N, J]⟩ .f32 :=
  layerMid (meanDiv (S (relu (layerMid (meanDiv (S x) c) x wl1 wr1 b1))) c)
    (relu (layerMid (meanDiv (S x) c) x wl1 wr1 b1)) wl2 wr2 b2

/-- The network with the mean as a product and the bias last. -/
def netMul (S : FVec Ideal ⟨2, ![N, D]⟩ .f32 → FVec Ideal ⟨2, ![N, D]⟩ .f32) (c : FVec Ideal ⟨1, ![N]⟩ .f32)
    (x : FVec Ideal ⟨2, ![N, D]⟩ .f32) (wl1 : FVec Ideal ⟨2, ![D, D]⟩ .f32) (b1 : FVec Ideal ⟨1, ![D]⟩ .f32)
    (wr1 : FVec Ideal ⟨2, ![D, D]⟩ .f32) (wl2 : FVec Ideal ⟨2, ![D, J]⟩ .f32) (b2 : FVec Ideal ⟨1, ![J]⟩ .f32)
    (wr2 : FVec Ideal ⟨2, ![D, J]⟩ .f32) : FVec Ideal ⟨2, ![N, J]⟩ .f32 :=
  layerLast (meanMul (S (relu (layerLast (meanMul (S x) c) x wl1 wr1 b1))) c)
    (relu (layerLast (meanMul (S x) c) x wl1 wr1 b1)) wl2 wr2 b2

/-- The two networks are one function when no clamped in-degree is zero. -/
theorem netMul_eq_netDiv (S : FVec Ideal ⟨2, ![N, D]⟩ .f32 → FVec Ideal ⟨2, ![N, D]⟩ .f32)
    (c : FVec Ideal ⟨1, ![N]⟩ .f32) (hc : ∀ r, c r ≠ 0)
    (x : FVec Ideal ⟨2, ![N, D]⟩ .f32) (wl1 : FVec Ideal ⟨2, ![D, D]⟩ .f32) (b1 : FVec Ideal ⟨1, ![D]⟩ .f32)
    (wr1 : FVec Ideal ⟨2, ![D, D]⟩ .f32) (wl2 : FVec Ideal ⟨2, ![D, J]⟩ .f32) (b2 : FVec Ideal ⟨1, ![J]⟩ .f32)
    (wr2 : FVec Ideal ⟨2, ![D, J]⟩ .f32) :
    netMul S c x wl1 b1 wr1 wl2 b2 wr2 = netDiv S c x wl1 b1 wr1 wl2 b2 wr2 := by
  unfold netMul netDiv
  simp only [layerLast_eq_layerMid, meanMul_eq_meanDiv _ c hc]

/-- A clamped in-degree, the maximum of anything with one, is not zero. -/
theorem max_one_ne_zero (n : EReal) : max n (Ideal.ofBits .f32 0x3F800000#32) ≠ 0 :=
  LibRecipDiv.max_oneWord_ne_zero n

end Cert.SageLaw

end
-- ==== Proof.KernelNet.lean ====
/-
  The kernel program's host pieces and its two grids, in the vocabulary of the two-layer network.

  The neighbour mean the host computes (neighbour sums times a per-node factor broadcast along the row) is, with the
  factor the reciprocal of the clamped in-degree, the mean written as a product; and each grid's whole-array function
  is a layer with the bias added last, the first one rectified — the bias reaching the grid as a one-row matrix.
-/
import proofs.«150137_j73469710566065_1_alg».proof.Proof.Glue
import proofs.«150137_j73469710566065_1_alg».proof.Proof.Blocks0
import proofs.«150137_j73469710566065_1_alg».proof.Proof.Blocks1
import proofs.«150137_j73469710566065_1_alg».proof.Proof.SageLaw
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Net

open Cert.KernelIdeal Cert.KernelIdeal.Gen Idealize.ShloMosaic Idealize.ShloMosaic.ValueIdx

/-- The word of the float one is the number one. -/
theorem one_word : Ideal.ofBits .f32 0x3F800000#32 = 1 := LibRecipDiv.ofBits_one_f32

/-- A per-node factor broadcast along the rows reads, at (r, k), the factor of node r. -/
theorem rowFactor_apply (rc : Glue.PerNode) (r : Fin 100000) (k : Fin 128) :
    broadcastInDim S100000x128 ![0, 1] bcast_S100000x1_S100000x128_0_1
      (broadcastInDim S100000x1 ![0] bcast_S100000_S100000x1_0 rc) (ix2 r k) = rc (ix1 r) := by
  rw [broadcastInDim_apply _ bcast_S100000x1_S100000x128_0_1 _ (ix2 r k) (ix2 r (0 : Fin 1)) (fun a => match a with
      | ⟨0, _⟩ => by show r.val = if (100000 : Nat) = 1 then 0 else r.val; rw [if_neg (by decide)]
      | ⟨1, _⟩ => by show 0 = if (1 : Nat) = 1 then 0 else k.val; rw [if_pos rfl]),
    broadcastInDim_apply _ bcast_S100000_S100000x1_0 _ (ix2 r (0 : Fin 1)) (ix1 r) (fun a => match a with
      | ⟨0, _⟩ => by show r.val = if (100000 : Nat) = 1 then 0 else r.val; rw [if_neg (by decide)])]

/-- Any matrix scaled row by row by a per-node factor, at (r, k). -/
theorem scaled_apply (S : Glue.Feat) (rc : Glue.PerNode) (r : Fin 100000) (k : Fin 128) :
    mulf (F := Ideal) S (broadcastInDim S100000x128 ![0, 1] bcast_S100000x1_S100000x128_0_1
      (broadcastInDim S100000x1 ![0] bcast_S100000_S100000x1_0 rc)) (ix2 r k) = S (ix2 r k) * rc (ix1 r) := by
  show S (ix2 r k) * _ = _
  rw [rowFactor_apply]

/-- The reciprocal of any per-node array, at node r: one divided by the entry. -/
theorem recip_apply (D : Glue.PerNode) (r : Fin 100000) :
    Host.divf (F := Ideal) (broadcastInDim S100000 ![] bcast_S_S100000 (constant (F := Ideal) S_ .f32 0x3F800000#32)) D (ix1 r)
      = Ideal.div 1 (D (ix1 r)) := by
  show Ideal.div (Ideal.ofBits .f32 0x3F800000#32) (D (ix1 r)) = _
  rw [one_word]

/-- The host's neighbour mean with the reciprocal of the clamped in-degree as the factor is the mean as a product. -/
theorem mean_recip (s d : Glue.Ends) (y : Glue.Feat) :
    Glue.mean s d (Glue.recip d) y = SageLaw.meanMul (Glue.sums s d y) (Glue.degree d) := by
  funext i
  obtain ⟨r, k, rfl⟩ : ∃ (r : Fin 100000) (k : Fin 128), i = ix2 r k := ⟨i 0, i 1, eq_ix2 i⟩
  unfold Glue.mean Glue.recip SageLaw.meanMul
  generalize Glue.sums s d y = S
  generalize Glue.degree d = D
  exact (scaled_apply S _ r k).trans (congrArg (S (ix2 r k) * ·) (recip_apply D r))

/-- Any per-node array clamped below by one is nowhere zero. -/
theorem clamp_ne_zero (cnt : Glue.PerNode) (r : S100000.Idx) :
    maximumf (F := Ideal) cnt (broadcastInDim S100000 ![] bcast_S_S100000 (constant (F := Ideal) S_ .f32 0x3F800000#32)) r ≠ 0 :=
  SageLaw.max_one_ne_zero (cnt r)

/-- No clamped in-degree is zero: it is a maximum with one. -/
theorem degree_ne_zero (d : Glue.Ends) (r : S100000.Idx) : Glue.degree d r ≠ 0 :=
  clamp_ne_zero _ r

/-- The first grid's whole-array function is the rectified layer, bias last, of a bias given as a vector and
    reaching the grid as a one-row matrix. -/
theorem layer0_eq (a x : Glue.Feat) (wl : FVec Ideal S128x128 .f32) (b : FVec Ideal S128 .f32) (wr : FVec Ideal S128x128 .f32) :
    Blocks0.layer a x wl (shapeCast _ b shapeCasts_S128_S1x128) wr = SageLaw.relu (SageLaw.layerLast a x wl wr b) := by
  funext i
  obtain ⟨r, q, rfl⟩ : ∃ (r : Fin 100000) (q : Fin 128), i = ix2 r q := ⟨i 0, i 1, eq_ix2 i⟩
  unfold Blocks0.layer SageLaw.relu SageLaw.layerLast
  show max (_ + _ + shapeCast _ b shapeCasts_S128_S1x128 (ix2 (0 : Fin 1) q)) 0 = max (_ + _ + b (ix1 q)) 0
  rw [shapeCast_a_1a_apply]

/-- The second grid's is the plain layer, bias last. -/
theorem layer1_eq (a x : Glue.Feat) (wl : FVec Ideal S128x64 .f32) (b : FVec Ideal S64 .f32) (wr : FVec Ideal S128x64 .f32) :
    Blocks1.layer a x wl (shapeCast _ b shapeCasts_S64_S1x64) wr = SageLaw.layerLast a x wl wr b := by
  funext i
  obtain ⟨r, q, rfl⟩ : ∃ (r : Fin 100000) (q : Fin 64), i = ix2 r q := ⟨i 0, i 1, eq_ix2 i⟩
  unfold Blocks1.layer SageLaw.layerLast
  show _ + _ + shapeCast _ b shapeCasts_S64_S1x64 (ix2 (0 : Fin 1) q) = _ + _ + b (ix1 q)
  rw [shapeCast_a_1a_apply]

end Cert.KernelIdeal.Net

end
-- ==== Proof.KernelValue.lean ====
/-
  What the idealized kernel program leaves in its result array: the two-layer network, the mean written as a product and
  the bias added last.

  The result array is the second grid's output: the plain layer of the neighbour mean of the hidden features and of the
  hidden features themselves; the hidden features are the first grid's output: the rectified layer of the neighbour mean
  of the node features and of the node features.  Both means use the sources, destinations and reciprocal in-degrees
  the first host stretch computed from the edge list, and the weights and biases reach the grids as launched.
-/
import proofs.«150137_j73469710566065_1_alg».proof.Proof.KernelRun
import proofs.«150137_j73469710566065_1_alg».proof.Proof.KernelNet

set_option maxRecDepth 16384

noncomputable section

namespace Cert.KernelIdeal.Whole

open Cert.KernelIdeal Cert.KernelIdeal.Gen
open Idealize.ShloMosaic Idealize.ShloMosaic.TcCoe Idealize.ShloMosaic.StableHlo
open Idealize.SL Idealize.SL.Sem

variable (m : (ℓ : Loc nD τ sig) → Buf (Elt Ideal) ℓ) (ρ : Dev nD → PrngReg)

/-- The sources of the launch memory's edge list. -/
abbrev src (c : Dev nD) : Glue.Ends := Glue.srcOf (m ((c.tc : Thread nD τ).loc main_arg7))
/-- Its destinations. -/
abbrev dst (c : Dev nD) : Glue.Ends := Glue.dstOf (m ((c.tc : Thread nD τ).loc main_arg7))

/-- The hidden features: the first grid's whole-array function of the neighbour mean of the node features, of the
    node features, and of the first layer's weights and bias. -/
def hidden (c : Dev nD) : Glue.Feat :=
  Blocks0.layer (Glue.mean (src m c) (dst m c) (Glue.recip (dst m c)) (m ((c.tc : Thread nD τ).loc main_arg0)))
    (m ((c.tc : Thread nD τ).loc main_arg0)) (m ((c.tc : Thread nD τ).loc main_arg1))
    (shapeCast _ (m ((c.tc : Thread nD τ).loc main_arg2)) shapeCasts_S128_S1x128) (m ((c.tc : Thread nD τ).loc main_arg3))

/-- The first grid's output array is the hidden features. -/
theorem first_grid (c : Dev nD) : (dat0 (V1 m ρ) c).arrAt 5 cfg0.N = hidden m c := by
  rw [Blocks0.final (V1 m ρ) c]
  have h24 : V1 m ρ c main_v24 = Glue.mean (src m c) (dst m c) (Glue.recip (dst m c)) (m ((c.tc : Thread nD τ).loc main_arg0)) :=
    Glue.before_mean (W0 m ρ c)
  have h0 : V1 m ρ c main_arg0 = m ((c.tc : Thread nD τ).loc main_arg0) := Glue.before_arg0 (W0 m ρ c)
  have h1 : V1 m ρ c main_arg1 = m ((c.tc : Thread nD τ).loc main_arg1) := Glue.before_arg1 (W0 m ρ c)
  have h25 : V1 m ρ c main_v25 = shapeCast _ (m ((c.tc : Thread nD τ).loc main_arg2)) shapeCasts_S128_S1x128 :=
    Glue.before_bias (W0 m ρ c)
  have h3 : V1 m ρ c main_arg3 = m ((c.tc : Thread nD τ).loc main_arg3) := Glue.before_arg3 (W0 m ρ c)
  rw [h24, h0, h1, h25, h3]
  rfl

/-- The result array is the second grid's whole-array function of the neighbour mean of the hidden features, of the
    hidden features, and of the second layer's weights and bias. -/
theorem second_grid (c : Dev nD) : (dat1 (V3 m ρ) c).arrAt 5 cfg1.N
    = Blocks1.layer (Glue.mean (src m c) (dst m c) (Glue.recip (dst m c)) (hidden m c)) (hidden m c)
        (m ((c.tc : Thread nD τ).loc main_arg4)) (shapeCast _ (m ((c.tc : Thread nD τ).loc main_arg5)) shapeCasts_S64_S1x64)
        (m ((c.tc : Thread nD τ).loc main_arg6)) := by
  rw [Blocks1.final (V3 m ρ) c]
  have w26 : W2 m ρ c (Proc.devRef .tc main_v26) = hidden m c := (W2_arr m ρ c 5).trans (first_grid m ρ c)
  have w1 : W2 m ρ c (Proc.devRef .tc main_v1) = src m c :=
    (W2_of_ne m ρ c main_v1 (by decide)).trans (Glue.before_src (W0 m ρ c))
  have w3 : W2 m ρ c (Proc.devRef .tc main_v3) = dst m c :=
    (W2_of_ne m ρ c main_v3 (by decide)).trans (Glue.before_dst (W0 m ρ c))
  have w21 : W2 m ρ c (Proc.devRef .tc main_v21) = Glue.recip (dst m c) :=
    (W2_of_ne m ρ c main_v21 (by decide)).trans (Glue.before_recip (W0 m ρ c))
  have w4 : W2 m ρ c (Proc.devRef .tc main_arg4) = m ((c.tc : Thread nD τ).loc main_arg4) :=
    (W2_of_ne m ρ c main_arg4 (by decide)).trans (Glue.before_arg4 (W0 m ρ c))
  have w5 : W2 m ρ c (Proc.devRef .tc main_arg5) = m ((c.tc : Thread nD τ).loc main_arg5) :=
    (W2_of_ne m ρ c main_arg5 (by decide)).trans (Glue.before_arg5 (W0 m ρ c))
  have w6 : W2 m ρ c (Proc.devRef .tc main_arg6) = m ((c.tc : Thread nD τ).loc main_arg6) :=
    (W2_of_ne m ρ c main_arg6 (by decide)).trans (Glue.before_arg6 (W0 m ρ c))
  have h39 : V3 m ρ c main_v39 = Glue.mean (src m c) (dst m c) (Glue.recip (dst m c)) (hidden m c) :=
    (Glue.between_mean (W2 m ρ c)).trans (by rw [w1, w3, w21, w26])
  have h26 : V3 m ρ c main_v26 = hidden m c := (Glue.between_hidden (W2 m ρ c)).trans w26
  have h4 : V3 m ρ c main_arg4 = m ((c.tc : Thread nD τ).loc main_arg4) := (Glue.between_arg4 (W2 m ρ c)).trans w4
  have h40 : V3 m ρ c main_v40 = shapeCast _ (m ((c.tc : Thread nD τ).loc main_arg5)) shapeCasts_S64_S1x64 :=
    (Glue.between_bias (W2 m ρ c)).trans (by rw [w5])
  have h6 : V3 m ρ c main_arg6 = m ((c.tc : Thread nD τ).loc main_arg6) := (Glue.between_arg6 (W2 m ρ c)).trans w6
  rw [h39, h26, h4, h40, h6]

/-- THE RESULT: the two-layer network of the launch memory's arguments, the mean as a product, the bias last. -/
theorem result_eq (c : Dev nD) : (dat1 (V3 m ρ) c).arrAt 5 cfg1.N
    = SageLaw.netMul (Glue.sums (src m c) (dst m c)) (Glue.degree (dst m c))
        (m ((c.tc : Thread nD τ).loc main_arg0)) (m ((c.tc : Thread nD τ).loc main_arg1))
        (m ((c.tc : Thread nD τ).loc main_arg2)) (m ((c.tc : Thread nD τ).loc main_arg3))
        (m ((c.tc : Thread nD τ).loc main_arg4)) (m ((c.tc : Thread nD τ).loc main_arg5))
        (m ((c.tc : Thread nD τ).loc main_arg6)) := by
  have hh : hidden m c = SageLaw.relu (SageLaw.layerLast
      (SageLaw.meanMul (Glue.sums (src m c) (dst m c) (m ((c.tc : Thread nD τ).loc main_arg0))) (Glue.degree (dst m c)))
      (m ((c.tc : Thread nD τ).loc main_arg0)) (m ((c.tc : Thread nD τ).loc main_arg1))
      (m ((c.tc : Thread nD τ).loc main_arg3)) (m ((c.tc : Thread nD τ).loc main_arg2))) := by
    unfold hidden
    rw [Net.layer0_eq, Net.mean_recip]
  rw [second_grid m ρ c, Net.layer1_eq, Net.mean_recip, hh]
  rfl

end Cert.KernelIdeal.Whole

end
-- ==== Proof.RefNet.lean ====
/-
  The reference program of a two-layer mean-aggregation graph convolution, read as one function on the extended reals.

  Layer by layer the reference computes  out = (s / c) · Wl + b + h · Wr,  where h is the layer's input, s is its
  matrix of neighbour sums (the rows of h gathered at the edges' sources and scatter-added at the edges'
  destinations) and c = max (in-degree) 1 is the clamped in-degree; a rectifier follows the first layer.  This module
  proves that the value written by the reference's last operation is exactly `SageLaw.netDiv` of the neighbour-sum
  map `sums e` and the clamped in-degree `degree e`, and that no clamped in-degree is zero.

  The gather and the scatter-add are never opened.  Both layers apply the same index operations to the same edge list,
  so the second layer's scatter-add and its degree are, by definition, the first layer's functions (applied to the
  hidden features).  What is left is to read every element: a matrix product at (r, q) is the sum over k of
  left (r, k) · right (k, q); a bias broadcast along the rows is b q at (r, q); the degree broadcast along a row is
  c r at (r, k); and on the extended reals the elementwise operations are +, the quotient and max, the rectifier's
  constant being 0.
-/
import proofs.«150137_j73469710566065_1_alg».proof.Proof.Gen.ReferenceIdeal.Read
import proofs.«150137_j73469710566065_1_alg».proof.Proof.SageLaw
import Idealize.ShloMosaic.Lib.ValueIdx
import Idealize.ShloMosaic.PureOps.Ideal.Laws

noncomputable section

open scoped BigOperators

namespace Cert.RefNet

open Cert.ReferenceIdeal Cert.ReferenceIdeal.Read Idealize.ShloMosaic Idealize.ShloMosaic.ValueIdx

/-- The neighbour sums of a feature matrix `y` along the edge list `e`: row `r` is the sum of the rows of `y` at the
    sources of the edges arriving at `r` (a gather along the sources, a scatter-add at the destinations). -/
def sums (e : (⟨S2x1600000, .i32⟩ : BufTy).Contents (Elt Ideal)) (y : FVec Ideal S100000x128 .f32) :
    FVec Ideal S100000x128 .f32 :=
  Host.scatterAdd scatter_S100000x128_S1600000x1_S1600000x128_1_0_0_1 (val_main_v11 (F := Ideal))
    (val_main_v12 (F := Ideal) e)
    (Host.gather gather_S100000x128_S1600000x1_S1600000x128_1_0_n_n_0_1_1128 y (val_main_v9 (F := Ideal) e))

/-- The clamped in-degree of every node: the number of arriving edges, or one if there is none. -/
def degree (e : (⟨S2x1600000, .i32⟩ : BufTy).Contents (Elt Ideal)) : FVec Ideal S100000 .f32 :=
  val_main_v19 (F := Ideal) e

theorem degree_ne_zero (e : (⟨S2x1600000, .i32⟩ : BufTy).Contents (Elt Ideal)) (r : S100000.Idx) : degree e r ≠ 0 := by
  unfold degree
  rw [val_main_v19_apply, val_main_v18_apply, val_main_cst_3_apply]
  exact SageLaw.max_one_ne_zero _

/-- The first layer's scatter-add is the neighbour sum of the input features. -/
theorem sums_first (x0 : (⟨S100000x128, .f32⟩ : BufTy).Contents (Elt Ideal)) (x7 : (⟨S2x1600000, .i32⟩ : BufTy).Contents (Elt Ideal)) :
    val_main_v13 (F := Ideal) x0 x7 = sums x7 x0 := rfl

/-- The second layer repeats the same index operations on the same edge list: its scatter-add is the neighbour sum
    of the hidden features. -/
theorem sums_second (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x7 : (⟨S2x1600000, .i32⟩ : BufTy).Contents (Elt Ideal)) :
    val_main_v39 (F := Ideal) x0 x1 x2 x3 x7 = sums x7 (val_main_v29 (F := Ideal) x0 x1 x2 x3 x7) := rfl

/-- The second layer recomputes the same clamped in-degree. -/
theorem degree_second (x7 : (⟨S2x1600000, .i32⟩ : BufTy).Contents (Elt Ideal)) :
    val_main_v45 (F := Ideal) x7 = degree x7 := rfl

/-- The first layer's mean: the neighbour sum divided by the row's clamped in-degree, broadcast along the row. -/
theorem mean_first (x0 : (⟨S100000x128, .f32⟩ : BufTy).Contents (Elt Ideal)) (x7 : (⟨S2x1600000, .i32⟩ : BufTy).Contents (Elt Ideal)) (r : Fin 100000) (k : Fin 128) :
    val_main_v22 (F := Ideal) x0 x7 (ix2 r k) = SageLaw.meanDiv (sums x7 x0) (degree x7) (ix2 r k) := by
  have h : idx_main_v20 (idx_main_v21 (ix2 r k)) = ix1 r :=
    funext fun a => Fin.ext (by match a with | ⟨0, _⟩ => rfl)
  rw [val_main_v22_apply, val_main_v21_apply, val_main_v20_apply, h, sums_first]
  rfl

/-- The second layer's mean, of the hidden features. -/
theorem mean_second (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x7 : (⟨S2x1600000, .i32⟩ : BufTy).Contents (Elt Ideal)) (r : Fin 100000) (k : Fin 128) :
    val_main_v48 (F := Ideal) x0 x1 x2 x3 x7 (ix2 r k)
      = SageLaw.meanDiv (sums x7 (val_main_v29 (F := Ideal) x0 x1 x2 x3 x7)) (degree x7) (ix2 r k) := by
  have h : idx_main_v46 (idx_main_v47 (ix2 r k)) = ix1 r :=
    funext fun a => Fin.ext (by match a with | ⟨0, _⟩ => rfl)
  rw [val_main_v48_apply, val_main_v47_apply, val_main_v46_apply, h, sums_second, degree_second]
  rfl

/-- The hidden features: the first layer's affine map of the mean and of the input, rectified. -/
theorem hidden (x0 : (⟨S100000x128, .f32⟩ : BufTy).Contents (Elt Ideal)) (x1 : (⟨S128x128, .f32⟩ : BufTy).Contents (Elt Ideal)) (x2 : (⟨S128, .f32⟩ : BufTy).Contents (Elt Ideal)) (x3 : (⟨S128x128, .f32⟩ : BufTy).Contents (Elt Ideal)) (x7 : (⟨S2x1600000, .i32⟩ : BufTy).Contents (Elt Ideal)) :
    val_main_v29 (F := Ideal) x0 x1 x2 x3 x7
      = SageLaw.relu (SageLaw.layerMid (SageLaw.meanDiv (sums x7 x0) (degree x7)) x0 x1 x3 x2) := by
  funext i
  obtain ⟨r, q, rfl⟩ : ∃ (r : Fin 100000) (q : Fin 128), i = ix2 r q := ⟨i 0, i 1, eq_ix2 i⟩
  have el : ∀ k : Fin 128, lidx_main_v23 (ix2 r q) k = ix2 r k := fun k =>
    funext fun a => Fin.ext (by match a with | ⟨0, _⟩ => rfl | ⟨1, _⟩ => rfl)
  have er : ∀ k : Fin 128, ridx_main_v23 (ix2 r q) k = ix2 k q := fun k =>
    funext fun a => Fin.ext (by match a with | ⟨0, _⟩ => rfl | ⟨1, _⟩ => rfl)
  have eb : idx_main_v24 (idx_main_v25 (ix2 r q)) = ix1 q :=
    funext fun a => Fin.ext (by match a with | ⟨0, _⟩ => rfl)
  have el' : ∀ k : Fin 128, lidx_main_v27 (ix2 r q) k = ix2 r k := fun k =>
    funext fun a => Fin.ext (by match a with | ⟨0, _⟩ => rfl | ⟨1, _⟩ => rfl)
  have er' : ∀ k : Fin 128, ridx_main_v27 (ix2 r q) k = ix2 k q := fun k =>
    funext fun a => Fin.ext (by match a with | ⟨0, _⟩ => rfl | ⟨1, _⟩ => rfl)
  rw [val_main_v29_apply, val_main_v28_apply, val_main_v26_apply, val_main_v23_apply, val_main_v27_apply,
    val_main_v25_apply, val_main_v24_apply, val_main_call0_v0_apply, val_main_call0_cst_apply, eb]
  simp only [Ideal.maximumf_def, Ideal.addf_def, Ideal.ofBits_def, Ideal.ofBits_zero_f32]
  unfold SageLaw.relu SageLaw.layerMid
  refine congrArg₂ max (congrArg₂ (· + ·) (congrArg₂ (· + ·) ?_ rfl) ?_) rfl
  · refine Finset.sum_congr rfl fun k _ => ?_
    rw [el, er, mean_first]
  · refine Finset.sum_congr rfl fun k _ => ?_
    rw [el', er']

theorem value (x0 : (⟨S100000x128, .f32⟩ : BufTy).Contents (Elt Ideal)) (x1 : (⟨S128x128, .f32⟩ : BufTy).Contents (Elt Ideal))
    (x2 : (⟨S128, .f32⟩ : BufTy).Contents (Elt Ideal)) (x3 : (⟨S128x128, .f32⟩ : BufTy).Contents (Elt Ideal))
    (x4 : (⟨S128x64, .f32⟩ : BufTy).Contents (Elt Ideal)) (x5 : (⟨S64, .f32⟩ : BufTy).Contents (Elt Ideal))
    (x6 : (⟨S128x64, .f32⟩ : BufTy).Contents (Elt Ideal)) (x7 : (⟨S2x1600000, .i32⟩ : BufTy).Contents (Elt Ideal)) :
    val_main_v54 (F := Ideal) x0 x1 x2 x3 x4 x5 x6 x7
      = SageLaw.netDiv (sums x7) (degree x7) x0 x1 x2 x3 x4 x5 x6 := by
  funext i
  obtain ⟨r, q, rfl⟩ : ∃ (r : Fin 100000) (q : Fin 64), i = ix2 r q := ⟨i 0, i 1, eq_ix2 i⟩
  have el : ∀ k : Fin 128, lidx_main_v49 (ix2 r q) k = ix2 r k := fun k =>
    funext fun a => Fin.ext (by match a with | ⟨0, _⟩ => rfl | ⟨1, _⟩ => rfl)
  have er : ∀ k : Fin 128, ridx_main_v49 (ix2 r q) k = ix2 k q := fun k =>
    funext fun a => Fin.ext (by match a with | ⟨0, _⟩ => rfl | ⟨1, _⟩ => rfl)
  have eb : idx_main_v50 (idx_main_v51 (ix2 r q)) = ix1 q :=
    funext fun a => Fin.ext (by match a with | ⟨0, _⟩ => rfl)
  have el' : ∀ k : Fin 128, lidx_main_v53 (ix2 r q) k = ix2 r k := fun k =>
    funext fun a => Fin.ext (by match a with | ⟨0, _⟩ => rfl | ⟨1, _⟩ => rfl)
  have er' : ∀ k : Fin 128, ridx_main_v53 (ix2 r q) k = ix2 k q := fun k =>
    funext fun a => Fin.ext (by match a with | ⟨0, _⟩ => rfl | ⟨1, _⟩ => rfl)
  rw [val_main_v54_apply, val_main_v52_apply, val_main_v49_apply, val_main_v53_apply, val_main_v51_apply,
    val_main_v50_apply, eb]
  simp only [Ideal.addf_def]
  unfold SageLaw.netDiv
  rw [← hidden x0 x1 x2 x3 x7]
  unfold SageLaw.layerMid
  refine congrArg₂ (· + ·) (congrArg₂ (· + ·) ?_ rfl) ?_
  · refine Finset.sum_congr rfl fun k _ => ?_
    rw [el, er, mean_second]
  · refine Finset.sum_congr rfl fun k _ => ?_
    rw [el', er']

end Cert.RefNet

end
-- ==== Proof.lean ====
/-
  A two-layer graph convolution with mean aggregation: the kernel program against the reference, on the extended reals.

  Both programs compute, per layer, (mean over arriving edges of the neighbours' rows) · Wl + b + (own row) · Wr, the
  first layer rectified.  They share, operation for operation, the gather along the edges' sources, the scatter-add at
  the edges' destinations and the count of arriving edges clamped below by one; these stay unopened.  They differ in
  three ways, none of which needs a finite input:
    · the kernel multiplies the neighbour sum by the reciprocal 1 / c of the clamped in-degree c where the reference
      divides by c — one function, since c ≥ 1 is not zero and a quotient by a nonzero extended real is the product
      with its inverse;
    · the kernel adds the bias after the second product, the reference between the two — addition is commutative and
      associative on the extended reals;
    · the kernel narrows the matrix products' operands to bf16 and tiles the rows in twenty blocks of 5000 — at the
      ideal values a change of format is the identity and the blocks tile the array.
  So the kernel's result array (read off its run through the two grids of kernel calls and the host operations around
  them) and the reference's (its run, one operation at a time) are the same network of the arguments.
  The idealized kernel is the printed kernel read at the ideal values: the ideal pass rewrote nothing.
-/
import proofs.«150137_j73469710566065_1_alg».proof.Defs
import proofs.«150137_j73469710566065_1_alg».proof.Proof.Gen.Kernel
import proofs.«150137_j73469710566065_1_alg».proof.Proof.Gen.Kernel.Skeleton
import proofs.«150137_j73469710566065_1_alg».proof.Proof.Gen.Kernel.Launch
import proofs.«150137_j73469710566065_1_alg».proof.Proof.Gen.Kernel.Points
import proofs.«150137_j73469710566065_1_alg».proof.Proof.Gen.Kernel.Frame
import proofs.«150137_j73469710566065_1_alg».proof.Proof.Gen.KernelIdeal
import proofs.«150137_j73469710566065_1_alg».proof.Proof.Gen.KernelIdeal.Skeleton
import proofs.«150137_j73469710566065_1_alg».proof.Proof.Gen.KernelIdeal.Launch
import proofs.«150137_j73469710566065_1_alg».proof.Proof.Gen.KernelIdeal.Points
import proofs.«150137_j73469710566065_1_alg».proof.Proof.Gen.KernelIdeal.Frame
import proofs.«150137_j73469710566065_1_alg».proof.Proof.Gen.ReferenceIdeal
import proofs.«150137_j73469710566065_1_alg».proof.Proof.Gen.ReferenceIdeal.Run
import proofs.«150137_j73469710566065_1_alg».proof.Proof.Gen.ReferenceIdeal.Read
import proofs.«150137_j73469710566065_1_alg».proof.Proof.Gen.Pre_finite_inputs
import proofs.«150137_j73469710566065_1_alg».proof.Proof.KernelValue
import proofs.«150137_j73469710566065_1_alg».proof.Proof.RefNet
import Idealize.ShloMosaic.Adequacy
import Idealize.ShloMosaic.Init

noncomputable section

namespace Cert.Proof

open Idealize.ShloMosaic Idealize.SL.Sem

/-! ## The shared pieces are the same functions in both programs -/

/-- The reference's neighbour sums along an edge list are the kernel program's: the same gather and scatter-add of
    the same sources (negative ones wrapped) and destinations. -/
theorem sums_eq (e : Cert.KernelIdeal.Glue.Edges) :
    Cert.RefNet.sums e = Cert.KernelIdeal.Glue.sums (Cert.KernelIdeal.Glue.srcOf e) (Cert.KernelIdeal.Glue.dstOf e) :=
  funext fun _ => rfl

/-- The reference's clamped in-degree is the kernel program's. -/
theorem degree_eq (e : Cert.KernelIdeal.Glue.Edges) :
    Cert.RefNet.degree e = Cert.KernelIdeal.Glue.degree (Cert.KernelIdeal.Glue.dstOf e) := rfl

/-! ## The claims -/

theorem frame_p : Cert.frame_Kernel := fun m ρ _ => Cert.Kernel.Gen.frame m ρ
theorem frame_pi : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments the kernel program's result array ends at the network with the mean as a
    product and the bias last, the reference's at the network with the mean as a quotient and the bias in the middle,
    of the same neighbour sums and clamped in-degrees: one function, no clamped in-degree being zero. -/
theorem algebraic : Cert.algebraic_KernelIdeal_ReferenceIdeal := by
  intro m ρ m' ρ' _ hagree
  refine ⟨fun c => (Cert.KernelIdeal.Gen.dat1 (Cert.KernelIdeal.Gen.V3 m ρ) c).arrAt 5 Cert.KernelIdeal.cfg1.N,
    Cert.KernelIdeal.Whole.run_result (F := Ideal) m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  show Cert.ReferenceIdeal.Value.res_main_v54 m' c
    = (Cert.KernelIdeal.Gen.dat1 (Cert.KernelIdeal.Gen.V3 m ρ) c).arrAt 5 Cert.KernelIdeal.cfg1.N
  rw [Cert.KernelIdeal.Whole.result_eq m ρ c, Cert.ReferenceIdeal.Read.val_main_v54_eq, Cert.RefNet.value,
    a0, a1, a2, a3, a4, a5, a6, a7, sums_eq, degree_eq,
    Cert.SageLaw.netMul_eq_netDiv _ _ (Cert.KernelIdeal.Net.degree_ne_zero _)]

theorem claim : Cert.Claim := ⟨Cert.Kernel.Gen.facts, Cert.KernelIdeal.Gen.facts, Cert.ReferenceIdeal.Gen.facts, Cert.Pre_finite_inputs.Gen.facts,
  frame_p, frame_pi, frame_ri, preserves, algebraic⟩

end Cert.Proof

end
